-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1280 : Shape := ⟨3, ![4, 4096, 1280]⟩
abbrev S1280x1280 : Shape := ⟨2, ![1280, 1280]⟩
abbrev S4x4 : Shape := ⟨2, ![4, 4]⟩
abbrev S8x8 : Shape := ⟨2, ![8, 8]⟩
abbrev S40x40 : Shape := ⟨2, ![40, 40]⟩
abbrev S_ : Shape := ⟨0, ![]⟩

class Facts : Prop where
  bcast_S_S4x4096x1280 : S_.BroadcastsInDim S4x4096x1280 (![] : Fin 0 → Fin S4x4096x1280.rank)
  reducesTo_S4x4096x1280_S_d0_1_2 : S4x4096x1280.ReducesTo [0, 1, 2] S_
  h_S_ : 0 < S_.numel
  bcast_S_S1280x1280 : S_.BroadcastsInDim S1280x1280 (![] : Fin 0 → Fin S1280x1280.rank)
  reducesTo_S1280x1280_S_d0_1 : S1280x1280.ReducesTo [0, 1] S_
  bcast_S_S4x4 : S_.BroadcastsInDim S4x4 (![] : Fin 0 → Fin S4x4.rank)
  reducesTo_S4x4_S_d0_1 : S4x4.ReducesTo [0, 1] S_
  bcast_S_S8x8 : S_.BroadcastsInDim S8x8 (![] : Fin 0 → Fin S8x8.rank)
  reducesTo_S8x8_S_d0_1 : S8x8.ReducesTo [0, 1] S_
  bcast_S_S40x40 : S_.BroadcastsInDim S40x40 (![] : Fin 0 → Fin S40x40.rank)
  reducesTo_S40x40_S_d0_1 : S40x40.ReducesTo [0, 1] S_

variable [Facts]

def fn_part1 {F : FTy → Type} [FloatOps F] (main_arg4 : FVec F S40x40 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S40x40 .f32 := Host.absf main_arg4
  let main_cst_6 : FVec F S_ .f32 := constant S_ .f32 0x7F800000#32
  let main_v20 : FVec F S40x40 .f32 := broadcastInDim S40x40 ![] bcast_S_S40x40 main_cst_6
  let main_v21 : IVec S40x40 1 := cmpf .olt main_v19 main_v20
  let main_c_7 : IVec S_ 1 := constantI S_ 1 1#1
  let main_v22 : IVec S_ 1 := (fun x v => Host.reduce IntOp.andi x v reducesTo_S40x40_S_d0_1 h_S_) main_v21 main_c_7
  let main_v23 : IVec S_ 1 := andi main_v18 main_v22
  main_v23

def fn {F : FTy → Type} [FloatOps F] (main_arg0 : FVec F S4x4096x1280 .f32) (main_arg1 : FVec F S1280x1280 .f32) (main_arg2 : FVec F S4x4 .f32) (main_arg3 : FVec F S8x8 .f32) (main_arg4 : FVec F S40x40 .f32) : IVec S_ 1 :=
  let main_v0 : FVec F S4x4096x1280 .f32 := Host.absf main_arg0
  let main_cst : FVec F S_ .f32 := constant S_ .f32 0x7F800000#32
  let main_v1 : FVec F S4x4096x1280 .f32 := broadcastInDim S4x4096x1280 ![] bcast_S_S4x4096x1280 main_cst
  let main_v2 : IVec S4x4096x1280 1 := cmpf .olt main_v0 main_v1
  let main_c : IVec S_ 1 := constantI S_ 1 1#1
  let main_v3 : IVec S_ 1 := (fun x v => Host.reduce IntOp.andi x v reducesTo_S4x4096x1280_S_d0_1_2 h_S_) main_v2 main_c
  let main_v4 : FVec F S1280x1280 .f32 := Host.absf main_arg1
  let main_cst_0 : FVec F S_ .f32 := constant S_ .f32 0x7F800000#32
  let main_v5 : FVec F S1280x1280 .f32 := broadcastInDim S1280x1280 ![] bcast_S_S1280x1280 main_cst_0
  let main_v6 : IVec S1280x1280 1 := cmpf .olt main_v4 main_v5
  let main_c_1 : IVec S_ 1 := constantI S_ 1 1#1
  let main_v7 : IVec S_ 1 := (fun x v => Host.reduce IntOp.andi x v reducesTo_S1280x1280_S_d0_1 h_S_) main_v6 main_c_1
  let main_v8 : IVec S_ 1 := andi main_v3 main_v7
  let main_v9 : FVec F S4x4 .f32 := Host.absf main_arg2
  let main_cst_2 : FVec F S_ .f32 := constant S_ .f32 0x7F800000#32
  let main_v10 : FVec F S4x4 .f32 := broadcastInDim S4x4 ![] bcast_S_S4x4 main_cst_2
  let main_v11 : IVec S4x4 1 := cmpf .olt main_v9 main_v10
  let main_c_3 : IVec S_ 1 := constantI S_ 1 1#1
  let main_v12 : IVec S_ 1 := (fun x v => Host.reduce IntOp.andi x v reducesTo_S4x4_S_d0_1 h_S_) main_v11 main_c_3
  let main_v13 : IVec S_ 1 := andi main_v8 main_v12
  let main_v14 : FVec F S8x8 .f32 := Host.absf main_arg3
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg4 main_v13 main_v16
-- ==== Kernel.lean ====
abbrev S4x4096x1280 : Shape := ⟨3, ![4, 4096, 1280]⟩
abbrev S1280x1280 : Shape := ⟨2, ![1280, 1280]⟩
abbrev S4x4 : Shape := ⟨2, ![4, 4]⟩
abbrev S8x8 : Shape := ⟨2, ![8, 8]⟩
abbrev S40x40 : Shape := ⟨2, ![40, 40]⟩
abbrev S4x1x4x1 : Shape := ⟨4, ![4, 1, 4, 1]⟩
abbrev S1x8x1x8 : Shape := ⟨4, ![1, 8, 1, 8]⟩
abbrev S4x8x4x8 : Shape := ⟨4, ![4, 8, 4, 8]⟩
abbrev S32x32 : Shape := ⟨2, ![32, 32]⟩
abbrev S32x1x32x1 : Shape := ⟨4, ![32, 1, 32, 1]⟩
abbrev S1x40x1x40 : Shape := ⟨4, ![1, 40, 1, 40]⟩
abbrev S32x40x32x40 : Shape := ⟨4, ![32, 40, 32, 40]⟩
abbrev S16384x1280 : Shape := ⟨2, ![16384, 1280]⟩
abbrev S1024x1280 : Shape := ⟨2, ![1024, 1280]⟩
abbrev S_ : Shape := ⟨0, ![]⟩

abbrev nBuf : Space → Nat
  | .hbm => 24
  | .vmem => 8
  | .smem => 0
  | _ => 0

abbrev bufTy : (tb : Table) → Fin (tcTables nBuf tb) → BufTy
  | .hbm, ⟨0, _⟩ => ⟨S4x4096x1280, .f32⟩
  | .hbm, ⟨1, _⟩ => ⟨S1280x1280, .f32⟩
  | .hbm, ⟨2, _⟩ => ⟨S4x4, .f32⟩
  | .hbm, ⟨3, _⟩ => ⟨S8x8, .f32⟩
  | .hbm, ⟨4, _⟩ => ⟨S40x40, .f32⟩
  | .hbm, ⟨5, _⟩ => ⟨S4x1x4x1, .f32⟩
  | .hbm, ⟨6, _⟩ => ⟨S1x8x1x8, .f32⟩
  | .hbm, ⟨7, _⟩ => ⟨S4x8x4x8, .f32⟩
  | .hbm, ⟨8, _⟩ => ⟨S4x8x4x8, .f32⟩
  | .hbm, ⟨9, _⟩ => ⟨S4x8x4x8, .f32⟩
  | .hbm, ⟨10, _⟩ => ⟨S32x32, .f32⟩
  | .hbm, ⟨11, _⟩ => ⟨S32x1x32x1, .f32⟩
  | .hbm, ⟨12, _⟩ => ⟨S1x40x1x40, .f32⟩
  | .hbm, ⟨13, _⟩ => ⟨S32x40x32x40, .f32⟩
  | .hbm, ⟨14, _⟩ => ⟨S32x40x32x40, .f32⟩
  | .hbm, ⟨15, _⟩ => ⟨S32x40x32x40, .f32⟩
  | .hbm, ⟨16, _⟩ => ⟨S1280x1280, .f32⟩
  | .hbm, ⟨17, _⟩ => ⟨S1280x1280, .bf16⟩
  | .hbm, ⟨18, _⟩ => ⟨S16384x1280, .f32⟩
  | .hbm, ⟨19, _⟩ => ⟨S16384x1280, .f32⟩
  | .hbm, ⟨20, _⟩ => ⟨S4x4096x1280, .f32⟩
  | .hbm, ⟨21, _⟩ => ⟨S_, .f32⟩
  | .hbm, ⟨22, _⟩ => ⟨S4x4096x1280, .f32⟩
  | .hbm, ⟨23, _⟩ => ⟨S4x4096x1280, .f32⟩
  | .local _ .vmem, ⟨0, _⟩ => ⟨S1280x1280, .f32⟩
  | .local _ .vmem, ⟨1, _⟩ => ⟨S1280x1280, .f32⟩
  | .local _ .vmem, ⟨2, _⟩ => ⟨S1280x1280, .bf16⟩
  | .local _ .vmem, ⟨3, _⟩ => ⟨S1024x1280, .f32⟩
  | .local _ .vmem, ⟨4, _⟩ => ⟨S1024x1280, .f32⟩
  | .local _ .vmem, ⟨5, _⟩ => ⟨S1280x1280, .bf16⟩
  | .local _ .vmem, ⟨6, _⟩ => ⟨S1024x1280, .f32⟩
  | .local _ .vmem, ⟨7, _⟩ => ⟨S1024x1280, .f32⟩
  | _, _ => ⟨S4x4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1280x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1280x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1280x1280 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S4x4_S4x1x4x1_0_2 : S4x4.BroadcastsInDim S4x1x4x1 (![0, 2] : Fin 2 → Fin S4x1x4x1.rank)
  bcast_S8x8_S1x8x1x8_1_3 : S8x8.BroadcastsInDim S1x8x1x8 (![1, 3] : Fin 2 → Fin S1x8x1x8.rank)
  bcast_S4x1x4x1_S4x8x4x8_0_1_2_3 : S4x1x4x1.BroadcastsInDim S4x8x4x8 (![0, 1, 2, 3] : Fin 4 → Fin S4x8x4x8.rank)
  bcast_S1x8x1x8_S4x8x4x8_0_1_2_3 : S1x8x1x8.BroadcastsInDim S4x8x4x8 (![0, 1, 2, 3] : Fin 4 → Fin S4x8x4x8.rank)
  shapeCasts_S4x8x4x8_S32x32 : S4x8x4x8.ShapeCasts S32x32
  bcast_S32x32_S32x1x32x1_0_2 : S32x32.BroadcastsInDim S32x1x32x1 (![0, 2] : Fin 2 → Fin S32x1x32x1.rank)
  bcast_S40x40_S1x40x1x40_1_3 : S40x40.BroadcastsInDim S1x40x1x40 (![1, 3] : Fin 2 → Fin S1x40x1x40.rank)
  bcast_S32x1x32x1_S32x40x32x40_0_1_2_3 : S32x1x32x1.BroadcastsInDim S32x40x32x40 (![0, 1, 2, 3] : Fin 4 → Fin S32x40x32x40.rank)
  bcast_S1x40x1x40_S32x40x32x40_0_1_2_3 : S1x40x1x40.BroadcastsInDim S32x40x32x40 (![0, 1, 2, 3] : Fin 4 → Fin S32x40x32x40.rank)
  shapeCasts_S32x40x32x40_S1280x1280 : S32x40x32x40.ShapeCasts S1280x1280
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  bitsLt_bf16_f32 : FTy.bits .bf16 < FTy.bits .f32
  packedbf16_S1280x1280_S1280x1280_0_0 : (Rect.unit (s := S1280x1280) ![0, 0] S1280x1280.size inb_S1280x1280_S1280x1280_0_0).PackedRows (EltTy.packing .bf16)
  shapeCasts_S4x4096x1280_S16384x1280 : S4x4096x1280.ShapeCasts S16384x1280
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  shapeCasts_S16384x1280_S4x4096x1280 : S16384x1280.ShapeCasts S4x4096x1280
  bcast_S_S4x4096x1280 : S_.BroadcastsInDim S4x4096x1280 (![] : Fin 0 → Fin S4x4096x1280.rank)
  dot_S1280x1280_S1280x1280_S1280x1280_1_1_0_0_n_n_wf : DotDims.WF S1280x1280 S1280x1280 S1280x1280 [1] [1] [0] [0] [] []
  dot_S1024x1280_S1280x1280_S1024x1280_1_0_0_1_n_n_wf : DotDims.WF S1024x1280 S1280x1280 S1024x1280 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1280x1280.size a ≤ S1280x1280.size a
  hwx0_0 : ∀ i : grid0.Coords, EltTy.bits .f32 = 32 ∨ (Rect.block (s := S1280x1280) S1280x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x1280.size a ≤ S1280x1280.size a
  hwx0_1 : ∀ i : grid0.Coords, EltTy.bits .f32 = 32 ∨ (Rect.block (s := S1280x1280) S1280x1280.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1280x1280.size a ≤ S1280x1280.size a
  hwx0_2 : ∀ i : grid0.Coords, EltTy.bits .bf16 = 32 ∨ (Rect.block (s := S1280x1280) S1280x1280.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1280.size a ≤ S16384x1280.size a
  hwx1_0 : ∀ i : grid1.Coords, EltTy.bits .f32 = 32 ∨ (Rect.block (s := S16384x1280) S1024x1280.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1280x1280.size a ≤ S1280x1280.size a
  hwx1_1 : ∀ i : grid1.Coords, EltTy.bits .bf16 = 32 ∨ (Rect.block (s := S1280x1280) S1280x1280.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1280.size a ≤ S16384x1280.size a
  hwx1_2 : ∀ i : grid1.Coords, EltTy.bits .f32 = 32 ∨ (Rect.block (s := S16384x1280) S1024x1280.size (cc1_transform_2 i) (hinb1_2 i)).WholeWords (EltTy.packing .f32)

variable [Facts₀]

def dot_S1280x1280_S1280x1280_S1280x1280_1_1_0_0_n_n : DotDims S1280x1280 S1280x1280 S1280x1280 where
  lhsContracting := [1]
  rhsContracting := [1]
  lhsNonContracting := [0]
  rhsNonContracting := [0]
  lhsBatch := []
  rhsBatch := []
  wf := dot_S1280x1280_S1280x1280_S1280x1280_1_1_0_0_n_n_wf
def dot_S1024x1280_S1280x1280_S1024x1280_1_0_0_1_n_n : DotDims S1024x1280 S1280x1280 S1024x1280 where
  lhsContracting := [1]
  rhsContracting := [0]
  lhsNonContracting := [0]
  rhsNonContracting := [1]
  lhsBatch := []
  rhsBatch := []
  wf := dot_S1024x1280_S1280x1280_S1024x1280_1_0_0_1_n_n_wf

abbrev win0_0 : Pipeline.Window sig grid0 :=
  Pipeline.Window.ofSpec (Memref.whole main_v1) S1280x1280.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1280x1280.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1024x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1280x1280.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1280.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x1280 : Shape := ⟨3, ![4, 4096, 1280]⟩
abbrev S1280x1280 : Shape := ⟨2, ![1280, 1280]⟩
abbrev S4x4 : Shape := ⟨2, ![4, 4]⟩
abbrev S8x8 : Shape := ⟨2, ![8, 8]⟩
abbrev S40x40 : Shape := ⟨2, ![40, 40]⟩
abbrev S4x1x4x1 : Shape := ⟨4, ![4, 1, 4, 1]⟩
abbrev S1x8x1x8 : Shape := ⟨4, ![1, 8, 1, 8]⟩
abbrev S4x8x4x8 : Shape := ⟨4, ![4, 8, 4, 8]⟩
abbrev S32x32 : Shape := ⟨2, ![32, 32]⟩
abbrev S32x1x32x1 : Shape := ⟨4, ![32, 1, 32, 1]⟩
abbrev S1x40x1x40 : Shape := ⟨4, ![1, 40, 1, 40]⟩
abbrev S32x40x32x40 : Shape := ⟨4, ![32, 40, 32, 40]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x1280, .f32⟩
  | .hbm, ⟨1, _⟩ => ⟨S1280x1280, .f32⟩
  | .hbm, ⟨2, _⟩ => ⟨S4x4, .f32⟩
  | .hbm, ⟨3, _⟩ => ⟨S8x8, .f32⟩
  | .hbm, ⟨4, _⟩ => ⟨S40x40, .f32⟩
  | .hbm, ⟨5, _⟩ => ⟨S4x1x4x1, .f32⟩
  | .hbm, ⟨6, _⟩ => ⟨S1x8x1x8, .f32⟩
  | .hbm, ⟨7, _⟩ => ⟨S4x8x4x8, .f32⟩
  | .hbm, ⟨8, _⟩ => ⟨S4x8x4x8, .f32⟩
  | .hbm, ⟨9, _⟩ => ⟨S4x8x4x8, .f32⟩
  | .hbm, ⟨10, _⟩ => ⟨S32x32, .f32⟩
  | .hbm, ⟨11, _⟩ => ⟨S32x1x32x1, .f32⟩
  | .hbm, ⟨12, _⟩ => ⟨S1x40x1x40, .f32⟩
  | .hbm, ⟨13, _⟩ => ⟨S32x40x32x40, .f32⟩
  | .hbm, ⟨14, _⟩ => ⟨S32x40x32x40, .f32⟩
  | .hbm, ⟨15, _⟩ => ⟨S32x40x32x40, .f32⟩
  | .hbm, ⟨16, _⟩ => ⟨S1280x1280, .f32⟩
  | .hbm, ⟨17, _⟩ => ⟨S1280x1280, .f32⟩
  | .hbm, ⟨18, _⟩ => ⟨S1280x1280, .f32⟩
  | .hbm, ⟨19, _⟩ => ⟨S1280x1280, .f32⟩
  | .hbm, ⟨20, _⟩ => ⟨S4x4096x1280, .f32⟩
  | .hbm, ⟨21, _⟩ => ⟨S_, .f32⟩
  | .hbm, ⟨22, _⟩ => ⟨S4x4096x1280, .f32⟩
  | .hbm, ⟨23, _⟩ => ⟨S4x4096x1280, .f32⟩
  | _, _ => ⟨S4x4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩

abbrev nD : Nat := 1
abbrev τ : Topo := Topo.v7x

variable {F : FTy → Type} [FloatOps F]

class Facts₀ : Prop where
  bcast_S4x4_S4x1x4x1_0_2 : S4x4.BroadcastsInDim S4x1x4x1 (![0, 2] : Fin 2 → Fin S4x1x4x1.rank)
  bcast_S8x8_S1x8x1x8_1_3 : S8x8.BroadcastsInDim S1x8x1x8 (![1, 3] : Fin 2 → Fin S1x8x1x8.rank)
  bcast_S4x1x4x1_S4x8x4x8_0_1_2_3 : S4x1x4x1.BroadcastsInDim S4x8x4x8 (![0, 1, 2, 3] : Fin 4 → Fin S4x8x4x8.rank)
  bcast_S1x8x1x8_S4x8x4x8_0_1_2_3 : S1x8x1x8.BroadcastsInDim S4x8x4x8 (![0, 1, 2, 3] : Fin 4 → Fin S4x8x4x8.rank)
  shapeCasts_S4x8x4x8_S32x32 : S4x8x4x8.ShapeCasts S32x32
  bcast_S32x32_S32x1x32x1_0_2 : S32x32.BroadcastsInDim S32x1x32x1 (![0, 2] : Fin 2 → Fin S32x1x32x1.rank)
  bcast_S40x40_S1x40x1x40_1_3 : S40x40.BroadcastsInDim S1x40x1x40 (![1, 3] : Fin 2 → Fin S1x40x1x40.rank)
  bcast_S32x1x32x1_S32x40x32x40_0_1_2_3 : S32x1x32x1.BroadcastsInDim S32x40x32x40 (![0, 1, 2, 3] : Fin 4 → Fin S32x40x32x40.rank)
  bcast_S1x40x1x40_S32x40x32x40_0_1_2_3 : S1x40x1x40.BroadcastsInDim S32x40x32x40 (![0, 1, 2, 3] : Fin 4 → Fin S32x40x32x40.rank)
  shapeCasts_S32x40x32x40_S1280x1280 : S32x40x32x40.ShapeCasts S1280x1280
  transposes_S1280x1280_S1280x1280_1_0 : S1280x1280.Transposes [1, 0] S1280x1280
  bcast_S_S4x4096x1280 : S_.BroadcastsInDim S4x4096x1280 (![] : Fin 0 → Fin S4x4096x1280.rank)
  dot_S1280x1280_S1280x1280_S1280x1280_1_0_0_1_n_n_wf : DotDims.WF S1280x1280 S1280x1280 S1280x1280 [1] [0] [0] [1] [] []
  dot_S4x4096x1280_S1280x1280_S4x4096x1280_2_1_01_0_n_n_wf : DotDims.WF S4x4096x1280 S1280x1280 S4x4096x1280 [2] [1] [0, 1] [0] [] []

variable [Facts₀]

def dot_S1280x1280_S1280x1280_S1280x1280_1_0_0_1_n_n : DotDims S1280x1280 S1280x1280 S1280x1280 where
  lhsContracting := [1]
  rhsContracting := [0]
  lhsNonContracting := [0]
  rhsNonContracting := [1]
  lhsBatch := []
  rhsBatch := []
  wf := dot_S1280x1280_S1280x1280_S1280x1280_1_0_0_1_n_n_wf
def dot_S4x4096x1280_S1280x1280_S4x4096x1280_2_1_01_0_n_n : DotDims S4x4096x1280 S1280x1280 S4x4096x1280 where
  lhsContracting := [2]
  rhsContracting := [1]
  lhsNonContracting := [0, 1]
  rhsNonContracting := [0]
  lhsBatch := []
  rhsBatch := []
  wf := dot_S4x4096x1280_S1280x1280_S4x4096x1280_2_1_01_0_n_n_wf

class Facts : Prop extends Facts₀ where

variable [Facts]
-- ==== Proof.KernelRun.lean ====
/-
  The idealized kernel's run with its RESULT named.

  @main is six segments: the two Kronecker products on the host, the first matrix product on the
  TensorCore, a reshape of the activations, the second matrix product over sixteen row blocks, and the
  closing reshape and scaling. The buffer contents at the six boundaries form a fold from the launch
  memory; this module states that every weakly fair execution ends with the result buffer at the last
  boundary's contents and with the five argument arrays as launched. What those contents ARE, as a
  function of the arguments, is read off the fold in the modules that import this one.
-/
import proofs.«108004_j88596585382840_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer holding the
    last boundary's contents and each argument array what it held at launch. -/
theorem run_named : θ_run defs (onTc (τ := τ) (main (F := F))) ⟨m, fun _ => 0, ρ⟩ (fun r => ∀ c : Dev nD,
      r.2.mem ((c.tc : Thread nD τ).loc main_v7) = W6 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v7 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Hand

end
-- ==== Proof.Spec.lean ====
/-
  The two matrix products, stated once, index by index, over the extended reals.

  With R the 1280 × 1280 rotation (the Kronecker product of the three factors), W the weight and x the
  activations, both programs compute

      out[b, s, o] = Σ_d x[b, s, d] · M[d, o],      M[d, o] = Σ_e R[d, e] · W[o, e].

  The kernel forms M = R · Wᵀ in one launch and multiplies the activations, flattened to 16384 rows, by M
  in a second one; the reference forms (R · Wᵀ)ᵀ on the host and contracts x against it. The grouping of
  the two sums is the same on both sides, so no law of the extended reals beyond re-indexing is used and
  nothing here needs the inputs to be finite.
-/
import Idealize.ShloMosaic.PureOps.Ideal
import Idealize.ShloMosaic.Lib.ValueIdx

noncomputable section

open scoped BigOperators

namespace Cert.Rotated

open Idealize.ShloMosaic Idealize.ShloMosaic.ValueIdx

/-- The square matrices R, W and M. -/
abbrev Sq : Shape := ⟨2, ![1280, 1280]⟩
/-- The activations with batch and sequence flattened into 16384 rows. -/
abbrev Flat : Shape := ⟨2, ![16384, 1280]⟩
/-- One block of 1024 rows of the flattened activations. -/
abbrev Blk : Shape := ⟨2, ![1024, 1280]⟩
/-- The activations and the result. -/
abbrev Cube : Shape := ⟨3, ![4, 4096, 1280]⟩

/-- M[d, o] = Σ_e R[d, e] · W[o, e]: the rotation times the transposed weight. -/
def rotAt (R W : Sq.Idx → EReal) (d o : Fin 1280) : EReal :=
  ∑ e : Fin 1280, R (ix2 d e) * W (ix2 o e)

/-- M as an array. -/
def rot (R W : Sq.Idx → EReal) : Sq.Idx → EReal := fun j => rotAt R W (j 0) (j 1)

theorem rot_ix2 (R W : Sq.Idx → EReal) (d o : Fin 1280) : rot R W (ix2 d o) = rotAt R W d o := rfl

/-- Row r of the flattened activations against column o of M. -/
def rowsAt (xf : Flat.Idx → EReal) (M : Sq.Idx → EReal) (r : Fin 16384) (o : Fin 1280) : EReal :=
  ∑ d : Fin 1280, xf (ix2 r d) * M (ix2 d o)

/-- The flattened product as an array. -/
def rows (xf : Flat.Idx → EReal) (M : Sq.Idx → EReal) : Flat.Idx → EReal := fun i => rowsAt xf M (i 0) (i 1)

theorem rows_ix2 (xf : Flat.Idx → EReal) (M : Sq.Idx → EReal) (r : Fin 16384) (o : Fin 1280) :
    rows xf M (ix2 r o) = rowsAt xf M r o := rfl

/-- The result before the closing scale: out[b, s, o] = Σ_d x[b, s, d] · M[d, o]. -/
def outAt (x : Cube.Idx → EReal) (M : Sq.Idx → EReal) (b : Fin 4) (s : Fin 4096) (o : Fin 1280) : EReal :=
  ∑ d : Fin 1280, x (ix3 b s d) * M (ix2 d o)

/-- The same as an array. -/
def out (x : Cube.Idx → EReal) (M : Sq.Idx → EReal) : Cube.Idx → EReal := fun i => outAt x M (i 0) (i 1) (i 2)

theorem out_ix3 (x : Cube.Idx → EReal) (M : Sq.Idx → EReal) (b : Fin 4) (s : Fin 4096) (o : Fin 1280) :
    out x M (ix3 b s o) = outAt x M b s o := rfl

/-- Row b · 4096 + s of the flattened activations is row (b, s) of the activations: if the flattened array
    reads the cube in row-major order, the flattened product at that row is the result at (b, s). -/
theorem rowsAt_of_flat (x : Cube.Idx → EReal) (xf : Flat.Idx → EReal) (M : Sq.Idx → EReal)
    (b : Fin 4) (s : Fin 4096) (r : Fin 16384) (o : Fin 1280)
    (hxf : ∀ d : Fin 1280, xf (ix2 r d) = x (ix3 b s d)) :
    rowsAt xf M r o = outAt x M b s o := by
  unfold rowsAt outAt
  exact Finset.sum_congr rfl fun d _ => by rw [hxf d]

end Cert.Rotated

end
-- ==== Proof.Region0.lean ====
/-
  The first launch: one grid point, every window the whole 1280 × 1280 array. Its body multiplies the
  rotation R by the transposed weight, contracting the second axis of both operands, so the output array
  ends holding M[d, o] = Σ_e R[d, e] · W[o, e]. Stated for ANY contents V the launch is entered from; the
  run instantiates V at the contents left by the host's Kronecker products.
-/
import proofs.«108004_j88596585382840_1_alg».proof.Proof.Gen.KernelIdeal.Frame
import proofs.«108004_j88596585382840_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen Cert.Rotated
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl

/-! ## The first product's operand indices: output (d, o), contraction e ↦ lhs (d, e), rhs (o, e) -/

theorem lhs0_0 (j : S1280x1280.Idx) (q : dot_S1280x1280_S1280x1280_S1280x1280_1_1_0_0_n_n.contr.Idx) :
    (dot_S1280x1280_S1280x1280_S1280x1280_1_1_0_0_n_n.lhsIdx j q 0).val = (j 0).val := by
  unfold DotDims.lhsIdx
  rw [dif_neg (show ¬(0 : Fin S1280x1280.rank) ∈ dot_S1280x1280_S1280x1280_S1280x1280_1_1_0_0_n_n.lhsBatch by decide), dif_pos (show (0 : Fin S1280x1280.rank) ∈ dot_S1280x1280_S1280x1280_S1280x1280_1_1_0_0_n_n.lhsNonContracting by decide)]
  rfl
theorem lhs0_1 (j : S1280x1280.Idx) (q : dot_S1280x1280_S1280x1280_S1280x1280_1_1_0_0_n_n.contr.Idx) :
    (dot_S1280x1280_S1280x1280_S1280x1280_1_1_0_0_n_n.lhsIdx j q 1).val = (q ⟨0, by decide⟩).val :=
  dot_S1280x1280_S1280x1280_S1280x1280_1_1_0_0_n_n.lhsIdx_val_of_single rfl j q
theorem rhs0_0 (j : S1280x1280.Idx) (q : dot_S1280x1280_S1280x1280_S1280x1280_1_1_0_0_n_n.contr.Idx) :
    (dot_S1280x1280_S1280x1280_S1280x1280_1_1_0_0_n_n.rhsIdx j q 0).val = (j 1).val := by
  unfold DotDims.rhsIdx
  rw [dif_neg (show ¬(0 : Fin S1280x1280.rank) ∈ dot_S1280x1280_S1280x1280_S1280x1280_1_1_0_0_n_n.rhsBatch by decide), dif_pos (show (0 : Fin S1280x1280.rank) ∈ dot_S1280x1280_S1280x1280_S1280x1280_1_1_0_0_n_n.rhsNonContracting by decide)]
  rfl
theorem rhs0_1 (j : S1280x1280.Idx) (q : dot_S1280x1280_S1280x1280_S1280x1280_1_1_0_0_n_n.contr.Idx) :
    (dot_S1280x1280_S1280x1280_S1280x1280_1_1_0_0_n_n.rhsIdx j q 1).val = (q ⟨0, by decide⟩).val :=
  dot_S1280x1280_S1280x1280_S1280x1280_1_1_0_0_n_n.rhsIdx_val_of_single rfl j q

/-- The body's one stored value at (d, o): the sum over e of R[d, e] · W[o, e] (the two narrowings to
    bf16 and the cast of the block to its own shape are the identity on extended reals; the accumulator
    is zero). -/
theorem pay0_at (x0 x1 : Vec Ideal S1280x1280 .f32) (d o : Fin 1280) :
    k0_pay1 (F := Ideal) x0 x1 (ix2 d o) = rotAt x0 x1 d o := by
  unfold k0_pay1
  refine (Ideal.matmul_constant_zero_apply dot_S1280x1280_S1280x1280_S1280x1280_1_1_0_0_n_n none _ _ (ix2 d o)).trans ?_
  unfold rotAt
  rw [← Equiv.sum_comp (contrEquiv1 dot_S1280x1280_S1280x1280_S1280x1280_1_1_0_0_n_n 1280 rfl rfl).symm]
  refine Finset.sum_congr rfl fun e _ => ?_
  have hk := contrEquiv1_symm_val dot_S1280x1280_S1280x1280_S1280x1280_1_1_0_0_n_n 1280 rfl rfl e
  have el : dot_S1280x1280_S1280x1280_S1280x1280_1_1_0_0_n_n.lhsIdx (ix2 d o) ((contrEquiv1 dot_S1280x1280_S1280x1280_S1280x1280_1_1_0_0_n_n 1280 rfl rfl).symm e) = ix2 d e := funext fun a => Fin.ext (by
    match a with
    | ⟨0, _⟩ => exact lhs0_0 _ _
    | ⟨1, _⟩ => exact (lhs0_1 _ _).trans hk)
  have er : dot_S1280x1280_S1280x1280_S1280x1280_1_1_0_0_n_n.rhsIdx (ix2 d o) ((contrEquiv1 dot_S1280x1280_S1280x1280_S1280x1280_1_1_0_0_n_n 1280 rfl rfl).symm e) = ix2 o e := funext fun a => Fin.ext (by
    match a with
    | ⟨0, _⟩ => exact rhs0_0 _ _
    | ⟨1, _⟩ => exact (rhs0_1 _ _).trans hk)
  rw [el, er]
  exact congrArg (· * x1 (ix2 o e)) (congrFun (shapeCast_self x0 shapeCasts_S1280x1280_S1280x1280) (ix2 d e))

variable (V : (c : Dev nD) → (b : Ref sig .tc) → Buf (Elt Ideal) ((c : Thread nD τ).loc b))

/-- The one grid point's blocks all start at the origin. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the grid point writes back is M read through its (whole-array) block. -/
theorem flushed0 (c : Dev nD) (t : Fin cfg0.N) :
    (dat0 V c).flushed 2 t = ((cfg0.win 2).blk t).view.read (Elt Ideal) (rot (V c main_v1) (V c main_arg1)) := by
  show (cfg0.win 2).cut (grid0.coords t) ((dat0 V c).after 2 t) = _
  rw [after0_2]
  unfold out0_2
  rw [View.canon_unit_zero hz2]
  simp only [View.ld_unit_zero (S := S1280x1280) hz2]
  obtain ⟨e00, e01, e10, e11, e20, e21⟩ := idx_facts0 t
  funext y
  obtain ⟨d, o, rfl⟩ : ∃ (d o : Fin 1280), y = ix2 d o := ⟨y 0, y 1, eq_ix2 y⟩
  show k0_pay1 (F := Ideal) (iblk0 V c 0 t) (iblk0 V c 1 t) (ix2 d o) = rot (V c main_v1) (V c main_arg1) (((cfg0.win 2).blk t).view.emb (ix2 d o))
  refine (pay0_at (iblk0 V c 0 t) (iblk0 V c 1 t) d o).trans ?_
  have hemb : ((cfg0.win 2).blk t).view.emb (ix2 d o) = (ix2 d o : S1280x1280.Idx) := by
    funext a; apply Fin.ext
    match a with
    | ⟨0, _⟩ => show win0_2.index t (0 : Fin 2) * 1280 + 1 * d.val = d.val; omega
    | ⟨1, _⟩ => show win0_2.index t (1 : Fin 2) * 1280 + 1 * o.val = o.val; omega
  rw [hemb, rot_ix2]
  unfold rotAt
  refine Finset.sum_congr rfl fun e _ => ?_
  have h0 : (iblk0 V c 0 t : Vec Ideal S1280x1280 .f32) (ix2 d e) = V c main_v1 (ix2 d e) := by
    show V c main_v1 (((cfg0.win 0).blk t).view.emb (ix2 d e)) = V c main_v1 (ix2 d e)
    refine congrArg (V c main_v1) ?_
    funext a; apply Fin.ext
    match a with
    | ⟨0, _⟩ => show win0_0.index t (0 : Fin 2) * 1280 + 1 * d.val = d.val; omega
    | ⟨1, _⟩ => show win0_0.index t (1 : Fin 2) * 1280 + 1 * e.val = e.val; omega
  have h1 : (iblk0 V c 1 t : Vec Ideal S1280x1280 .f32) (ix2 o e) = V c main_arg1 (ix2 o e) := by
    show V c main_arg1 (((cfg0.win 1).blk t).view.emb (ix2 o e)) = V c main_arg1 (ix2 o e)
    refine congrArg (V c main_arg1) ?_
    funext a; apply Fin.ext
    match a with
    | ⟨0, _⟩ => show win0_1.index t (0 : Fin 2) * 1280 + 1 * o.val = o.val; omega
    | ⟨1, _⟩ => show win0_1.index t (1 : Fin 2) * 1280 + 1 * e.val = e.val; omega
  rw [h0, h1]

/-- An index of the array is in the point's block iff each coordinate is in the block's range. -/
theorem mem_blk0 (t : Fin cfg0.N) (i : S1280x1280.Idx) :
    i ∈ ((cfg0.win 2).blk t).view.set ↔ ∀ a : Fin 2, win0_2.index t a * S1280x1280.size a ≤ (i a).val ∧ (i a).val < win0_2.index t a * S1280x1280.size a + S1280x1280.size a := by
  show i ∈ ((View.whole main_v2).slice (win0_2.rect t)).set ↔ _
  rw [View.set_slice_whole, Rect.mem_set_unit]
  exact Iff.rfl

/-- After the launch the output array holds M. -/
theorem final0 (c : Dev nD) : (dat0 V c).arrAt 2 cfg0.N = rot (V c main_v1) (V c main_arg1) :=
  (dat0 V c).arrAt_eq_of_cover 2 (rot (V c main_v1) (V c main_arg1)) (fun t _ => flushed0 V c t) fun i => by
    refine ⟨t0_0, flush0_2 t0_0, ?_⟩
    rw [mem_blk0]
    obtain ⟨e00, e01, e10, e11, e20, e21⟩ := idx_facts0 t0_0
    have h0 : (i 0).val < 1280 := (i 0).isLt
    have h1 : (i 1).val < 1280 := (i 1).isLt
    intro a
    match a with
    | ⟨0, _⟩ => show win0_2.index t0_0 (0 : Fin 2) * 1280 ≤ (i 0).val ∧ (i 0).val < win0_2.index t0_0 (0 : Fin 2) * 1280 + 1280; omega
    | ⟨1, _⟩ => show win0_2.index t0_0 (1 : Fin 2) * 1280 ≤ (i 1).val ∧ (i 1).val < win0_2.index t0_0 (1 : Fin 2) * 1280 + 1280; omega

end Cert.KernelIdeal.Hand

end
-- ==== Proof.Region1.lean ====
/-
  The second launch: sixteen grid points, point t taking rows 1024·t … 1024·t + 1023 of the flattened
  activations and the whole of M, and writing the same rows of the output. Its body is one matrix product
  into a zero accumulator, so the output array ends holding, at row r and column o, Σ_d xf[r, d] · M[d, o].
  Stated for ANY contents V the launch is entered from.
-/
import proofs.«108004_j88596585382840_1_alg».proof.Proof.Gen.KernelIdeal.Frame
import proofs.«108004_j88596585382840_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen Cert.Rotated
open Idealize.ShloMosaic Idealize.ShloMosaic.TcCoe Idealize.SL.Sem Idealize.ShloMosaic.ValueIdx
open Idealize.ShloMosaic.Pipeline (Dat)

theorem hz2' : (![0, 0] : Fin 2 → Nat) = fun _ => 0 := funext fun a => by fin_cases a <;> rfl

/-! ## The second product's operand indices: output (p, q), contraction d ↦ lhs (p, d), rhs (d, q) -/

theorem lhs1_0 (j : S1024x1280.Idx) (k : dot_S1024x1280_S1280x1280_S1024x1280_1_0_0_1_n_n.contr.Idx) :
    (dot_S1024x1280_S1280x1280_S1024x1280_1_0_0_1_n_n.lhsIdx j k 0).val = (j 0).val := by
  unfold DotDims.lhsIdx
  rw [dif_neg (show ¬(0 : Fin S1024x1280.rank) ∈ dot_S1024x1280_S1280x1280_S1024x1280_1_0_0_1_n_n.lhsBatch by decide), dif_pos (show (0 : Fin S1024x1280.rank) ∈ dot_S1024x1280_S1280x1280_S1024x1280_1_0_0_1_n_n.lhsNonContracting by decide)]
  rfl
theorem lhs1_1 (j : S1024x1280.Idx) (k : dot_S1024x1280_S1280x1280_S1024x1280_1_0_0_1_n_n.contr.Idx) :
    (dot_S1024x1280_S1280x1280_S1024x1280_1_0_0_1_n_n.lhsIdx j k 1).val = (k ⟨0, by decide⟩).val :=
  dot_S1024x1280_S1280x1280_S1024x1280_1_0_0_1_n_n.lhsIdx_val_of_single rfl j k
theorem rhs1_0 (j : S1024x1280.Idx) (k : dot_S1024x1280_S1280x1280_S1024x1280_1_0_0_1_n_n.contr.Idx) :
    (dot_S1024x1280_S1280x1280_S1024x1280_1_0_0_1_n_n.rhsIdx j k 0).val = (k ⟨0, by decide⟩).val :=
  dot_S1024x1280_S1280x1280_S1024x1280_1_0_0_1_n_n.rhsIdx_val_of_single rfl j k
theorem rhs1_1 (j : S1024x1280.Idx) (k : dot_S1024x1280_S1280x1280_S1024x1280_1_0_0_1_n_n.contr.Idx) :
    (dot_S1024x1280_S1280x1280_S1024x1280_1_0_0_1_n_n.rhsIdx j k 1).val = (j 1).val := by
  unfold DotDims.rhsIdx
  rw [dif_neg (show ¬(1 : Fin S1280x1280.rank) ∈ dot_S1024x1280_S1280x1280_S1024x1280_1_0_0_1_n_n.rhsBatch by decide), dif_pos (show (1 : Fin S1280x1280.rank) ∈ dot_S1024x1280_S1280x1280_S1024x1280_1_0_0_1_n_n.rhsNonContracting by decide)]
  rfl

/-- The body's one stored value at (p, q): the sum over d of the row block at (p, d) times M at (d, q). -/
theorem pay1_at (x0 : Vec Ideal S1024x1280 .f32) (x1 : Vec Ideal S1280x1280 .bf16) (p : Fin 1024) (q : Fin 1280) :
    k1_pay1 (F := Ideal) x0 x1 (ix2 p q) = ∑ d : Fin 1280, x0 (ix2 p d) * x1 (ix2 d q) := by
  unfold k1_pay1
  refine (Ideal.matmul_constant_zero_apply dot_S1024x1280_S1280x1280_S1024x1280_1_0_0_1_n_n none _ _ (ix2 p q)).trans ?_
  rw [← Equiv.sum_comp (contrEquiv1 dot_S1024x1280_S1280x1280_S1024x1280_1_0_0_1_n_n 1280 rfl rfl).symm]
  refine Finset.sum_congr rfl fun d _ => ?_
  have hk := contrEquiv1_symm_val dot_S1024x1280_S1280x1280_S1024x1280_1_0_0_1_n_n 1280 rfl rfl d
  have el : dot_S1024x1280_S1280x1280_S1024x1280_1_0_0_1_n_n.lhsIdx (ix2 p q) ((contrEquiv1 dot_S1024x1280_S1280x1280_S1024x1280_1_0_0_1_n_n 1280 rfl rfl).symm d) = ix2 p d := funext fun a => Fin.ext (by
    match a with
    | ⟨0, _⟩ => exact lhs1_0 _ _
    | ⟨1, _⟩ => exact (lhs1_1 _ _).trans hk)
  have er : dot_S1024x1280_S1280x1280_S1024x1280_1_0_0_1_n_n.rhsIdx (ix2 p q) ((contrEquiv1 dot_S1024x1280_S1280x1280_S1024x1280_1_0_0_1_n_n 1280 rfl rfl).symm d) = ix2 d q := funext fun a => Fin.ext (by
    match a with
    | ⟨0, _⟩ => exact (rhs1_0 _ _).trans hk
    | ⟨1, _⟩ => exact rhs1_1 _ _)
  rw [el, er]
  have e0 := congrFun (shapeCast_self x0 shapeCasts_S1024x1280_S1024x1280) (ix2 p d)
  have e1 := congrFun (shapeCast_self x1 shapeCasts_S1280x1280_S1280x1280) (ix2 d q)
  exact (congrArg (· * _) e0).trans (congrArg (x0 (ix2 p d) * ·) e1)

variable (V : (c : Dev nD) → (b : Ref sig .tc) → Buf (Elt Ideal) ((c : Thread nD τ).loc b))

/-- Point t's row block is block t of the rows, on the activations and on the output; M is taken whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is the flattened product read through rows 1024·t … 1024·t + 1023. -/
theorem flushed1 (c : Dev nD) (t : Fin cfg1.N) :
    (dat1 V c).flushed 2 t = ((cfg1.win 2).blk t).view.read (Elt Ideal) (rows (V c main_v3) (V c main_v2)) := by
  show (cfg1.win 2).cut (grid1.coords t) ((dat1 V c).after 2 t) = _
  rw [after1_2]
  unfold out1_2
  rw [View.canon_unit_zero hz2']
  simp only [View.ld_unit_zero (S := S1024x1280) hz2', View.ld_unit_zero (S := S1280x1280) hz2']
  obtain ⟨e00, e01, e10, e11, e20, e21⟩ := idx_facts1 t
  have hN : cfg1.N = 16 := N_1
  have ht : t.val < 16 := by have := t.isLt; omega
  funext y
  obtain ⟨p, q, rfl⟩ : ∃ (p : Fin 1024) (q : Fin 1280), y = ix2 p q := ⟨y 0, y 1, eq_ix2 y⟩
  show k1_pay1 (F := Ideal) (iblk1 V c 0 t) (iblk1 V c 1 t) (ix2 p q) = rows (V c main_v3) (V c main_v2) (((cfg1.win 2).blk t).view.emb (ix2 p q))
  refine (pay1_at (iblk1 V c 0 t) (iblk1 V c 1 t) p q).trans ?_
  have hr : t.val * 1024 + p.val < 16384 := by have := p.isLt; omega
  have hemb : ((cfg1.win 2).blk t).view.emb (ix2 p q) = (ix2 (⟨t.val * 1024 + p.val, hr⟩ : Fin 16384) q : S16384x1280.Idx) := by
    funext a; apply Fin.ext
    match a with
    | ⟨0, _⟩ => show win1_2.index t (0 : Fin 2) * 1024 + 1 * p.val = t.val * 1024 + p.val; omega
    | ⟨1, _⟩ => show win1_2.index t (1 : Fin 2) * 1280 + 1 * q.val = q.val; omega
  rw [hemb, rows_ix2]
  unfold rowsAt
  refine Finset.sum_congr rfl fun d _ => ?_
  have h0 : (iblk1 V c 0 t : Vec Ideal S1024x1280 .f32) (ix2 p d) = V c main_v3 (ix2 (⟨t.val * 1024 + p.val, hr⟩ : Fin 16384) d) := by
    show V c main_v3 (((cfg1.win 0).blk t).view.emb (ix2 p d)) = V c main_v3 (ix2 (⟨t.val * 1024 + p.val, hr⟩ : Fin 16384) d)
    refine congrArg (V c main_v3) ?_
    funext a; apply Fin.ext
    match a with
    | ⟨0, _⟩ => show win1_0.index t (0 : Fin 2) * 1024 + 1 * p.val = t.val * 1024 + p.val; omega
    | ⟨1, _⟩ => show win1_0.index t (1 : Fin 2) * 1280 + 1 * d.val = d.val; omega
  have h1 : (iblk1 V c 1 t : Vec Ideal S1280x1280 .bf16) (ix2 d q) = V c main_v2 (ix2 d q) := by
    show V c main_v2 (((cfg1.win 1).blk t).view.emb (ix2 d q)) = V c main_v2 (ix2 d q)
    refine congrArg (V c main_v2) ?_
    funext a; apply Fin.ext
    match a with
    | ⟨0, _⟩ => show win1_1.index t (0 : Fin 2) * 1280 + 1 * d.val = d.val; omega
    | ⟨1, _⟩ => show win1_1.index t (1 : Fin 2) * 1280 + 1 * q.val = q.val; omega
  rw [h0, h1]

/-- An index of the output is in point t's block iff each coordinate is in the block's range. -/
theorem mem_blk1 (t : Fin cfg1.N) (i : S16384x1280.Idx) :
    i ∈ ((cfg1.win 2).blk t).view.set ↔ ∀ a : Fin 2, win1_2.index t a * S1024x1280.size a ≤ (i a).val ∧ (i a).val < win1_2.index t a * S1024x1280.size a + S1024x1280.size a := by
  show i ∈ ((View.whole main_v4).slice (win1_2.rect t)).set ↔ _
  rw [View.set_slice_whole, Rect.mem_set_unit]
  exact Iff.rfl

/-- After the launch the output array holds the flattened product: row r lies in the block of point r / 1024. -/
theorem final1 (c : Dev nD) : (dat1 V c).arrAt 2 cfg1.N = rows (V c main_v3) (V c main_v2) :=
  (dat1 V c).arrAt_eq_of_cover 2 (rows (V c main_v3) (V c main_v2)) (fun t _ => flushed1 V c t) fun i => by
    have h0 : (i 0).val < 16384 := (i 0).isLt
    have h1 : (i 1).val < 1280 := (i 1).isLt
    have hN : cfg1.N = 16 := N_1
    have hN' : grid1.N = 16 := N_1
    refine ⟨⟨(i 0).val / 1024, by omega⟩, flush1_2 _, ?_⟩
    rw [mem_blk1]
    obtain ⟨e00, e01, e10, e11, e20, e21⟩ := idx_facts1 ⟨(i 0).val / 1024, by omega⟩
    have e20' : win1_2.index ⟨(i 0).val / 1024, by omega⟩ (0 : Fin 2) = (i 0).val / 1024 := e20
    intro a
    match a with
    | ⟨0, _⟩ => show win1_2.index ⟨(i 0).val / 1024, _⟩ (0 : Fin 2) * 1024 ≤ (i 0).val ∧ (i 0).val < win1_2.index ⟨(i 0).val / 1024, _⟩ (0 : Fin 2) * 1024 + 1024; omega
    | ⟨1, _⟩ => show win1_2.index ⟨(i 0).val / 1024, _⟩ (1 : Fin 2) * 1280 ≤ (i 1).val ∧ (i 1).val < win1_2.index ⟨(i 0).val / 1024, _⟩ (1 : Fin 2) * 1280 + 1280; omega

end Cert.KernelIdeal.Hand

end
-- ==== Proof.KernelValue.lean ====
/-
  The kernel's result as a function of its arguments, read back through the boundaries of @main.

  From the launch memory: the host forms the rotation R from the three Kronecker factors (the same twelve
  operations the reference runs, so R is carried as the reference's own stage and never opened); the first
  launch leaves M = R · Wᵀ; the activations are flattened to 16384 rows; the second launch leaves the
  flattened product; the host reshapes it back to [4, 4096, 1280] and multiplies by the constant one.
-/
import proofs.«108004_j88596585382840_1_alg».proof.Proof.Gen.KernelIdeal.Frame
import proofs.«108004_j88596585382840_1_alg».proof.Proof.Gen.ReferenceIdeal.Read
import proofs.«108004_j88596585382840_1_alg».proof.Proof.Region0
import proofs.«108004_j88596585382840_1_alg».proof.Proof.Region1
import Idealize.ShloMosaic.Lib.StableHlo.Run

set_option maxRecDepth 16384

noncomputable section

namespace Cert.KernelIdeal.Hand

open Cert.KernelIdeal Cert.KernelIdeal.Gen Cert.Rotated
open Idealize.ShloMosaic Idealize.ShloMosaic.TcCoe Idealize.SL.Sem Idealize.ShloMosaic.StableHlo

variable (m : (ℓ : Loc nD τ sig) → Buf (Elt Ideal) ℓ) (ρ : Dev nD → PrngReg)

/-- The rotation as the first launch finds it: the reference's stage for R, of the three factors. -/
theorem V2_v1 (c : Dev nD) : V2 m ρ c main_v1
    = Cert.ReferenceIdeal.Read.val_main_v1 (F := Ideal) (m ((c.tc : Thread nD τ).loc main_arg2)) (m ((c.tc : Thread nD τ).loc main_arg3)) (m ((c.tc : Thread nD τ).loc main_arg4)) := by
  show StableHlo.after hostOps0_1 (StableHlo.after hostOps0 (W0 m ρ c)) (Proc.devRef .tc main_v1) = _
  after_results <;> rfl

/-- The weight as the first launch finds it: as launched. -/
theorem V2_arg1 (c : Dev nD) : V2 m ρ c main_arg1 = m ((c.tc : Thread nD τ).loc main_arg1) := by
  show StableHlo.after hostOps0_1 (StableHlo.after hostOps0 (W0 m ρ c)) (Proc.devRef .tc main_arg1) = _
  after_results <;> rfl

/-- After the first launch its output array holds M. -/
theorem W3_v2 (c : Dev nD) : W3 m ρ c (Proc.devRef .tc main_v2) = rot (V2 m ρ c main_v1) (V2 m ρ c main_arg1) :=
  (W3_arr m ρ c 2).trans (final0 (V2 m ρ) c)

/-- The activations are untouched by the Kronecker products and by the first launch. -/
theorem W3_arg0 (c : Dev nD) : W3 m ρ c (Proc.devRef .tc main_arg0) = m ((c.tc : Thread nD τ).loc main_arg0) :=
  (W3_of_ne m ρ c main_arg0 (by decide)).trans (by
    show StableHlo.after hostOps0_1 (StableHlo.after hostOps0 (W0 m ρ c)) (Proc.devRef .tc main_arg0) = _
    after_results <;> rfl)

/-- The second launch finds the activations flattened to 16384 rows … -/
theorem V4_v3 (c : Dev nD) : V4 m ρ c main_v3
    = shapeCast S16384x1280 (m ((c.tc : Thread nD τ).loc main_arg0)) shapeCasts_S4x4096x1280_S16384x1280 := by
  show StableHlo.after hostOps1 (W3 m ρ c) (Proc.devRef .tc main_v3) = _
  after_results
  rw [W3_arg0 m ρ c]
  rfl

/-- … and M where the first launch left it. -/
theorem V4_v2 (c : Dev nD) : V4 m ρ c main_v2 = rot (V2 m ρ c main_v1) (V2 m ρ c main_arg1) := by
  show StableHlo.after hostOps1 (W3 m ρ c) (Proc.devRef .tc main_v2) = _
  after_results
  exact W3_v2 m ρ c

/-- After the second launch its output array holds the flattened product. -/
theorem W5_v4 (c : Dev nD) : W5 m ρ c (Proc.devRef .tc main_v4) = rows (V4 m ρ c main_v3) (V4 m ρ c main_v2) :=
  (W5_arr m ρ c 2).trans (final1 (V4 m ρ) c)

/-- The closing host operations: reshape to [4, 4096, 1280], times the broadcast constant. -/
theorem W6_v7 (c : Dev nD) : W6 m ρ c (Proc.devRef .tc main_v7)
    = mulf (shapeCast S4x4096x1280 (W5 m ρ c (Proc.devRef .tc main_v4)) shapeCasts_S16384x1280_S4x4096x1280)
        (broadcastInDim S4x4096x1280 ![] bcast_S_S4x4096x1280 (constant (F := Ideal) S_ .f32 0x3F800000#32)) := by
  show StableHlo.after hostOps2 (W5 m ρ c) (Proc.devRef .tc main_v7) = _
  after_results <;> rfl

/-- The kernel's result, of the launch contents of its five arguments. -/
theorem kernel_value (c : Dev nD) : W6 m ρ c (Proc.devRef .tc main_v7)
    = mulf (shapeCast S4x4096x1280
          (rows (shapeCast S16384x1280 (m ((c.tc : Thread nD τ).loc main_arg0)) shapeCasts_S4x4096x1280_S16384x1280)
            (rot (Cert.ReferenceIdeal.Read.val_main_v1 (F := Ideal) (m ((c.tc : Thread nD τ).loc main_arg2)) (m ((c.tc : Thread nD τ).loc main_arg3)) (m ((c.tc : Thread nD τ).loc main_arg4)))
              (m ((c.tc : Thread nD τ).loc main_arg1))))
          shapeCasts_S16384x1280_S4x4096x1280)
        (broadcastInDim S4x4096x1280 ![] bcast_S_S4x4096x1280 (constant (F := Ideal) S_ .f32 0x3F800000#32)) := by
  rw [W6_v7, W5_v4, V4_v3, V4_v2, V2_v1, V2_arg1]

end Cert.KernelIdeal.Hand

end
-- ==== Proof.Flatten.lean ====
/-
  Flattening [4, 4096, 1280] to [16384, 1280] and back is row-major re-indexing: row b · 4096 + s of the
  flattened activations is row (b, s). So multiplying the flattened activations by M and reshaping the
  product back gives out[b, s, o] = Σ_d x[b, s, d] · M[d, o].
-/
import proofs.«108004_j88596585382840_1_alg».proof.Proof.Spec
import Idealize.ShloMosaic.Lib.Pipeline.Value

noncomputable section

open scoped BigOperators

namespace Cert.Rotated

open Idealize.ShloMosaic Idealize.ShloMosaic.ValueIdx

/-- The flattened activations at row b · 4096 + s, column d, are the activations at (b, s, d). -/
theorem flat_at (x : Cube.Idx → EReal) (h1 : Cube.ShapeCasts Flat) (b : Fin 4) (s : Fin 4096) (d : Fin 1280)
    (hr : b.val * 4096 + s.val < 16384) :
    shapeCast Flat x h1 (ix2 (⟨b.val * 4096 + s.val, hr⟩ : Fin 16384) d) = x (ix3 b s d) :=
  shapeCast_apply x h1 (ix2 (⟨b.val * 4096 + s.val, hr⟩ : Fin 16384) d) (ix3 b s d) (by
    rw [Shape.rowMajor_val_two, Shape.rowMajor_val_three]
    show (b.val * 4096 + s.val) * 1280 + d.val = (b.val * 4096 + s.val) * 1280 + d.val
    rfl)

/-- The flattened product, reshaped back, is the result before the closing scale. -/
theorem unflatten_rows (x : Cube.Idx → EReal) (M : Sq.Idx → EReal) (h1 : Cube.ShapeCasts Flat) (h2 : Flat.ShapeCasts Cube) :
    shapeCast Cube (rows (shapeCast Flat x h1) M) h2 = out x M := by
  funext i
  obtain ⟨b, s, o, rfl⟩ : ∃ (b : Fin 4) (s : Fin 4096) (o : Fin 1280), i = ix3 b s o := ⟨i 0, i 1, i 2, eq_ix3 i⟩
  have hr : b.val * 4096 + s.val < 16384 := by have := b.isLt; have := s.isLt; omega
  refine (shapeCast_apply (rows (shapeCast Flat x h1) M) h2 (ix3 b s o) (ix2 (⟨b.val * 4096 + s.val, hr⟩ : Fin 16384) o) (by
    rw [Shape.rowMajor_val_two, Shape.rowMajor_val_three]
    show (b.val * 4096 + s.val) * 1280 + o.val = (b.val * 4096 + s.val) * 1280 + o.val
    rfl)).trans ?_
  rw [rows_ix2, out_ix3]
  exact rowsAt_of_flat x (shapeCast Flat x h1) M b s ⟨b.val * 4096 + s.val, hr⟩ o fun d => flat_at x h1 b s d hr

end Cert.Rotated

end
-- ==== Proof.RefValue.lean ====
/-
  The reference, stage by stage, is the specification: its first product contracts R's second axis with
  the transposed weight's first, so at (d, o) it is Σ_e R[d, e] · W[o, e] = M[d, o]; it is transposed, and
  the second product contracts the activations' last axis with the transposed M's second axis, so at
  (b, s, o) it is Σ_d x[b, s, d] · M[d, o].
-/
import proofs.«108004_j88596585382840_1_alg».proof.Proof.Gen.ReferenceIdeal.Read
import proofs.«108004_j88596585382840_1_alg».proof.Proof.Spec

noncomputable section

open scoped BigOperators

namespace Cert.ReferenceIdeal.Hand

open Cert.ReferenceIdeal Cert.ReferenceIdeal.Read Cert.Rotated
open Idealize.ShloMosaic Idealize.ShloMosaic.ValueIdx

variable (x0 : (⟨S4x4096x1280, .f32⟩ : BufTy).Contents (Elt Ideal)) (x1 : (⟨S1280x1280, .f32⟩ : BufTy).Contents (Elt Ideal))
  (x2 : (⟨S4x4, .f32⟩ : BufTy).Contents (Elt Ideal)) (x3 : (⟨S8x8, .f32⟩ : BufTy).Contents (Elt Ideal)) (x4 : (⟨S40x40, .f32⟩ : BufTy).Contents (Elt Ideal))

/-- The transposed first product at (o, d) is M[d, o]. -/
theorem v4_at (d o : Fin 1280) :
    val_main_v4 (F := Ideal) x1 x2 x3 x4 (ix2 o d) = rotAt (val_main_v1 (F := Ideal) x2 x3 x4) x1 d o := by
  have e4 : idx_main_v4 (ix2 o d) = (ix2 d o : S1280x1280.Idx) := funext fun a => Fin.ext (by
    match a with
    | ⟨0, _⟩ => rfl
    | ⟨1, _⟩ => rfl)
  rw [val_main_v4_apply, e4, val_main_v3_apply]
  unfold rotAt
  refine Finset.sum_congr rfl fun e _ => ?_
  have el : lidx_main_v3 (ix2 d o) e = (ix2 d e : S1280x1280.Idx) := funext fun a => Fin.ext (by
    match a with
    | ⟨0, _⟩ => rfl
    | ⟨1, _⟩ => rfl)
  have er : idx_main_v2 (ridx_main_v3 (ix2 d o) e) = (ix2 o e : S1280x1280.Idx) := funext fun a => Fin.ext (by
    match a with
    | ⟨0, _⟩ => rfl
    | ⟨1, _⟩ => rfl)
  rw [el, val_main_v2_apply, er]

/-- The second product at (b, s, o) is the result before the closing scale. -/
theorem v5_at (b : Fin 4) (s : Fin 4096) (o : Fin 1280) :
    val_main_v5 (F := Ideal) x0 x1 x2 x3 x4 (ix3 b s o) = outAt x0 (rot (val_main_v1 (F := Ideal) x2 x3 x4) x1) b s o := by
  rw [val_main_v5_apply]
  unfold outAt
  refine Finset.sum_congr rfl fun d _ => ?_
  have el : lidx_main_v5 (ix3 b s o) d = (ix3 b s d : S4x4096x1280.Idx) := funext fun a => Fin.ext (by
    match a with
    | ⟨0, _⟩ => rfl
    | ⟨1, _⟩ => rfl
    | ⟨2, _⟩ => rfl)
  have er : ridx_main_v5 (ix3 b s o) d = (ix2 o d : S1280x1280.Idx) := funext fun a => Fin.ext (by
    match a with
    | ⟨0, _⟩ => rfl
    | ⟨1, _⟩ => rfl)
  rw [el, er, v4_at, rot_ix2]

/-- As arrays. -/
theorem v5_eq_out : val_main_v5 (F := Ideal) x0 x1 x2 x3 x4 = out x0 (rot (val_main_v1 (F := Ideal) x2 x3 x4) x1) := by
  funext i
  obtain ⟨b, s, o, rfl⟩ : ∃ (b : Fin 4) (s : Fin 4096) (o : Fin 1280), i = ix3 b s o := ⟨i 0, i 1, i 2, eq_ix3 i⟩
  rw [out_ix3]
  exact v5_at x0 x1 x2 x3 x4 b s o

end Cert.ReferenceIdeal.Hand

end
-- ==== Proof.Bridge.lean ====
/-
  The two values are one function of the arguments. The kernel's result is the flattened product
  reshaped back and scaled; reshaping back undoes the flattening, so before the scale it is
  out[b, s, o] = Σ_d x[b, s, d] · M[d, o] with M = R · Wᵀ — which is what the reference's second
  product computes. The closing multiplication by the broadcast constant one is the same operation on
  both sides and is carried unopened.
-/
import proofs.«108004_j88596585382840_1_alg».proof.Proof.KernelValue
import proofs.«108004_j88596585382840_1_alg».proof.Proof.Flatten
import proofs.«108004_j88596585382840_1_alg».proof.Proof.RefValue

set_option maxRecDepth 16384

noncomputable section

namespace Cert.KernelIdeal.Hand

open Cert.KernelIdeal Cert.KernelIdeal.Gen Cert.Rotated
open Idealize.ShloMosaic Idealize.ShloMosaic.TcCoe Idealize.SL.Sem

variable (m : (ℓ : Loc nD τ sig) → Buf (Elt Ideal) ℓ) (ρ : Dev nD → PrngReg)

/-- The kernel's result is the reference's last stage of the same five argument arrays. -/
theorem values_agree (c : Dev nD) : W6 m ρ c (Proc.devRef .tc main_v7)
    = Cert.ReferenceIdeal.Read.val_main_v7 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [kernel_value m ρ c]
  have hP := (unflatten_rows (m ((c.tc : Thread nD τ).loc main_arg0))
      (rot (Cert.ReferenceIdeal.Read.val_main_v1 (F := Ideal) (m ((c.tc : Thread nD τ).loc main_arg2)) (m ((c.tc : Thread nD τ).loc main_arg3)) (m ((c.tc : Thread nD τ).loc main_arg4))) (m ((c.tc : Thread nD τ).loc main_arg1)))
      shapeCasts_S4x4096x1280_S16384x1280 shapeCasts_S16384x1280_S4x4096x1280).trans
    (Cert.ReferenceIdeal.Hand.v5_eq_out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))).symm
  rw [hP]
  rfl

end Cert.KernelIdeal.Hand

end
-- ==== Proof.lean ====
/-
  A rotated linear layer: out = x · (R · Wᵀ), with R the Kronecker product of three small factors.

  The kernel builds R on the host, forms M = R · Wᵀ in one launch, flattens the activations to 16384
  rows, multiplies them by M in a second launch over sixteen row blocks, reshapes back and multiplies by
  the constant one. The reference builds the same R, forms (R · Wᵀ)ᵀ and contracts the activations
  against it, then multiplies by the same constant. On the extended reals both are

      out[b, s, o] = (Σ_d x[b, s, d] · (Σ_e R[d, e] · W[o, e])) · 1,

  with the two sums grouped the same way, so the equality is re-indexing only: row-major flattening and
  its inverse, two transposes, and the contraction indices of the four matrix products. No distributive
  or cancellation law is used, and the precondition that the inputs are finite is never opened. The
  idealization rewrote nothing, so the preservation claim is trivial. The three frames are the two
  generated kernel frames and the reference's generated run with its result dropped.
-/
import proofs.«108004_j88596585382840_1_alg».proof.Defs
import proofs.«108004_j88596585382840_1_alg».proof.Proof.Gen.Kernel
import proofs.«108004_j88596585382840_1_alg».proof.Proof.Gen.Kernel.Skeleton
import proofs.«108004_j88596585382840_1_alg».proof.Proof.Gen.Kernel.Launch
import proofs.«108004_j88596585382840_1_alg».proof.Proof.Gen.Kernel.Points
import proofs.«108004_j88596585382840_1_alg».proof.Proof.Gen.Kernel.Frame
import proofs.«108004_j88596585382840_1_alg».proof.Proof.Gen.KernelIdeal
import proofs.«108004_j88596585382840_1_alg».proof.Proof.Gen.KernelIdeal.Skeleton
import proofs.«108004_j88596585382840_1_alg».proof.Proof.Gen.KernelIdeal.Launch
import proofs.«108004_j88596585382840_1_alg».proof.Proof.Gen.KernelIdeal.Points
import proofs.«108004_j88596585382840_1_alg».proof.Proof.Gen.KernelIdeal.Frame
import proofs.«108004_j88596585382840_1_alg».proof.Proof.Gen.ReferenceIdeal
import proofs.«108004_j88596585382840_1_alg».proof.Proof.Gen.ReferenceIdeal.Run
import proofs.«108004_j88596585382840_1_alg».proof.Proof.Gen.ReferenceIdeal.Read
import proofs.«108004_j88596585382840_1_alg».proof.Proof.Gen.Pre_finite_inputs
import proofs.«108004_j88596585382840_1_alg».proof.Proof.KernelRun
import proofs.«108004_j88596585382840_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with the result array at the kernel's
    value: the kernel by its run read through @main's boundaries, the reference by its run, whose last
    stage is that value of the same arguments. -/
theorem algebraic : Cert.algebraic_KernelIdeal_ReferenceIdeal := by
  intro m ρ m' ρ' _ hagree
  refine ⟨fun c => Cert.KernelIdeal.Gen.W6 m ρ c (Proc.devRef .tc Cert.KernelIdeal.main_v7), Cert.KernelIdeal.Hand.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.1, (hagree c).2.2.1, (hagree c).2.2.2.1, (hagree c).2.2.2.2]
  exact (Cert.KernelIdeal.Hand.values_agree m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
